-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S1x64 : Shape := ⟨2, ![1, 64]⟩
abbrev S32x32 : Shape := ⟨2, ![32, 32]⟩
abbrev S32 : Shape := ⟨1, ![32]⟩
abbrev S2x1600000 : Shape := ⟨2, ![2, 1600000]⟩
abbrev S1600000 : Shape := ⟨1, ![1600000]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S50000x32 .f32) (main_arg1 : FVec F S1x64 .f32) (main_arg2 : FVec F S32x32 .f32) (main_arg3 : FVec F S32 .f32) (main_arg4 : IVec S2x1600000 32) (main_arg5 : IVec S1600000 32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S50000x32 : Shape := ⟨2, ![50000, 32]⟩
abbrev S1x64 : Shape := ⟨2, ![1, 64]⟩
abbrev S32x32 : Shape := ⟨2, ![32, 32]⟩
abbrev S32 : Shape := ⟨1, ![32]⟩
abbrev S2x1600000 : Shape := ⟨2, ![2, 1600000]⟩
abbrev S1600000 : Shape := ⟨1, ![1600000]⟩
abbrev S1x1600000 : Shape := ⟨2, ![1, 1600000]⟩
abbrev S50000x2 : Shape := ⟨2, ![50000, 2]⟩
abbrev S5000x32 : Shape := ⟨2, ![5000, 32]⟩
abbrev S5000x2 : Shape := ⟨2, ![5000, 2]⟩
abbrev S1x32 : Shape := ⟨2, ![1, 32]⟩
abbrev S5000 : Shape := ⟨1, ![5000]⟩
abbrev S5000x1 : Shape := ⟨2, ![5000, 1]⟩
abbrev S50000x1 : Shape := ⟨2, ![50000, 1]⟩
abbrev S_ : Shape := ⟨0, ![]⟩
abbrev S1600000x1 : Shape := ⟨2, ![1600000, 1]⟩
abbrev S1600000x32 : Shape := ⟨2, ![1600000, 32]⟩

abbrev nBuf : Space → Nat
  | .hbm => 95
  | .vmem => 19
  | .smem => 0
  | _ => 0

abbrev bufTy : (tb : Table) → Fin (tcTables nBuf tb) → BufTy
  | .hbm, ⟨0, _⟩ => ⟨S50000x32, .f32⟩
  | .hbm, ⟨1, _⟩ => ⟨S1x64, .f32⟩
  | .hbm, ⟨2, _⟩ => ⟨S32x32, .f32⟩
  | .hbm, ⟨3, _⟩ => ⟨S32, .f32⟩
  | .hbm, ⟨4, _⟩ => ⟨S2x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S32x32, .f32⟩
  | .hbm, ⟨11, _⟩ => ⟨S50000x32, .f32⟩
  | .hbm, ⟨12, _⟩ => ⟨S50000x2, .f32⟩
  | .hbm, ⟨13, _⟩ => ⟨S50000x1, .f32⟩
  | .hbm, ⟨14, _⟩ => ⟨S50000x1, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x1, .f32⟩
  | .hbm, ⟨33, _⟩ => ⟨S1600000x1, .f32⟩
  | .hbm, ⟨34, _⟩ => ⟨S1600000x1, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x1, .f32⟩
  | .hbm, ⟨44, _⟩ => ⟨S1600000x1, .f32⟩
  | .hbm, ⟨45, _⟩ => ⟨S1600000x1, .f32⟩
  | .hbm, ⟨46, _⟩ => ⟨S1600000x1, .f32⟩
  | .hbm, ⟨47, _⟩ => ⟨S_, .f32⟩
  | .hbm, ⟨48, _⟩ => ⟨S50000x1, .f32⟩
  | .hbm, ⟨49, _⟩ => ⟨S1600000x1, .i32⟩
  | .hbm, ⟨50, _⟩ => ⟨S50000x1, .f32⟩
  | .hbm, ⟨51, _⟩ => ⟨S_, .f32⟩
  | .hbm, ⟨52, _⟩ => ⟨S50000x1, .f32⟩
  | .hbm, ⟨53, _⟩ => ⟨S50000x1, .f32⟩
  | .hbm, ⟨54, _⟩ => ⟨S_, .f32⟩
  | .hbm, ⟨55, _⟩ => ⟨S50000x1, .f32⟩
  | .hbm, ⟨56, _⟩ => ⟨S50000x1, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x1, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x1, .f32⟩
  | .hbm, ⟨75, _⟩ => ⟨S1600000x1, .f32⟩
  | .hbm, ⟨76, _⟩ => ⟨S1600000x1, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x32, .f32⟩
  | .hbm, ⟨86, _⟩ => ⟨S1600000x32, .f32⟩
  | .hbm, ⟨87, _⟩ => ⟨S1600000x32, .f32⟩
  | .hbm, ⟨88, _⟩ => ⟨S_, .f32⟩
  | .hbm, ⟨89, _⟩ => ⟨S50000x32, .f32⟩
  | .hbm, ⟨90, _⟩ => ⟨S1600000x1, .i32⟩
  | .hbm, ⟨91, _⟩ => ⟨S50000x32, .f32⟩
  | .hbm, ⟨92, _⟩ => ⟨S50000x1, .f32⟩
  | .hbm, ⟨93, _⟩ => ⟨S50000x1, .f32⟩
  | .hbm, ⟨94, _⟩ => ⟨S50000x32, .f32⟩
  | .local _ .vmem, ⟨0, _⟩ => ⟨S5000x32, .f32⟩
  | .local _ .vmem, ⟨1, _⟩ => ⟨S5000x32, .f32⟩
  | .local _ .vmem, ⟨2, _⟩ => ⟨S32x32, .f32⟩
  | .local _ .vmem, ⟨3, _⟩ => ⟨S32, .f32⟩
  | .local _ .vmem, ⟨4, _⟩ => ⟨S1x64, .f32⟩
  | .local _ .vmem, ⟨5, _⟩ => ⟨S5000x32, .f32⟩
  | .local _ .vmem, ⟨6, _⟩ => ⟨S5000x32, .f32⟩
  | .local _ .vmem, ⟨7, _⟩ => ⟨S5000x2, .f32⟩
  | .local _ .vmem, ⟨8, _⟩ => ⟨S5000x2, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x1, .f32⟩
  | .local _ .vmem, ⟨14, _⟩ => ⟨S5000x1, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_c_7 : Ref sig .tc := ⟨.hbm, 57, rfl⟩
abbrev main_v41 : Ref sig .tc := ⟨.hbm, 58, rfl⟩
abbrev main_v42 : Ref sig .tc := ⟨.hbm, 59, rfl⟩
abbrev main_c_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_9 : Ref sig .tc := ⟨.hbm, 66, rfl⟩
abbrev main_v48 : Ref sig .tc := ⟨.hbm, 67, rfl⟩
abbrev main_v49 : Ref sig .tc := ⟨.hbm, 68, rfl⟩
abbrev main_c_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_11 : Ref sig .tc := ⟨.hbm, 77, rfl⟩
abbrev main_v57 : Ref sig .tc := ⟨.hbm, 78, rfl⟩
abbrev main_v58 : Ref sig .tc := ⟨.hbm, 79, rfl⟩
abbrev main_c_12 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_13 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S32x32_S32x32_1_0 : S32x32.Transposes [1, 0] S32x32
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S1x64_S1x32_0_0 : ∀ a, (![0, 0] : Fin 2 → Nat) a + S1x32.size a ≤ S1x64.size a
  h_S1x32 : 0 < S1x32.numel
  inb_S1x64_S1x32_0_32 : ∀ a, (![0, 32] : Fin 2 → Nat) a + S1x32.size a ≤ S1x64.size a
  reduces_S5000x32_S5000 : S5000x32.Reduces [1] S5000
  shapeCasts_S5000_S5000x1 : S5000.ShapeCasts S5000x1
  concatenates_S5000x1_S5000x1_S5000x2_d1 : Shape.Concatenates [S5000x1, S5000x1] S5000x2 1
  inb_S5000x2_S5000x2_0_0 : ∀ a, (![0, 0] : Fin 2 → Nat) a + S5000x2.size a ≤ S5000x2.size a
  h_S5000x2 : 0 < S5000x2.numel
  slices_S50000x2_S50000x1_0_0 : S50000x2.Slices ![0, 0] S50000x1
  slices_S50000x2_S50000x1_0_1 : S50000x2.Slices ![0, 1] S50000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x1 : S_.BroadcastsInDim S50000x1 (![] : Fin 0 → Fin S50000x1.rank)
  bcast_S1600000x1_S1600000x32_0_1 : S1600000x1.BroadcastsInDim S1600000x32 (![0, 1] : Fin 2 → Fin S1600000x32.rank)
  bcast_S_S50000x32 : S_.BroadcastsInDim S50000x32 (![] : Fin 0 → Fin S50000x32.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x32_S5000x32 : S5000x32.ShapeCasts S5000x32
  broadcasts_S5000x1_S5000x32 : S5000x1.Broadcasts S5000x32
  dot_S5000x32_S32x32_S5000x32_1_0_0_1_n_n_wf : DotDims.WF S5000x32 S32x32 S5000x32 [1] [0] [0] [1] [] []
  gather_S50000x1_S1600000x1_S1600000x1_1_0_n_n_0_1_11_wf : GatherDims.WF S50000x1 S1600000x1 S1600000x1 [1] [0] [] [0] [] 1 ![1, 1]
  gather_S1600000x1_S1600000x1_S1600000x1_1_0_n_n_0_1_11_wf : GatherDims.WF S1600000x1 S1600000x1 S1600000x1 [1] [0] [] [0] [] 1 ![1, 1]
  scatter_S50000x1_S1600000x1_S1600000x1_1_0_0_1_wf : ScatterDims.WF S50000x1 S1600000x1 S1600000x1 [1] [0] [0] 1
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S50000x32.size a
  hwx0_0 : ∀ i : grid0.Coords, EltTy.bits .f32 = 32 ∨ (Rect.block (s := S50000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x32.size a ≤ S50000x32.size a
  hwx0_4 : ∀ i : grid0.Coords, EltTy.bits .f32 = 32 ∨ (Rect.block (s := S50000x32) S5000x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x2.size a ≤ S50000x2.size a
  hwx0_5 : ∀ i : grid0.Coords, EltTy.bits .f32 = 32 ∨ (Rect.block (s := S50000x2) S5000x2.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S50000x32.size a
  hwx1_0 : ∀ i : grid1.Coords, EltTy.bits .f32 = 32 ∨ (Rect.block (s := S50000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S50000x32.size a
  hwx1_1 : ∀ i : grid1.Coords, EltTy.bits .f32 = 32 ∨ (Rect.block (s := S50000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S50000x32.size a
  hwx1_3 : ∀ i : grid1.Coords, EltTy.bits .f32 = 32 ∨ (Rect.block (s := S50000x32) S5000x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S50000x32.size a
  hwx1_4 : ∀ i : grid1.Coords, EltTy.bits .f32 = 32 ∨ (Rect.block (s := S50000x32) S5000x32.size (cc1_transform_4 i) (hinb1_4 i)).WholeWords (EltTy.packing .f32)

variable [Facts₀]

def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def gather_S50000x1_S1600000x1_S1600000x1_1_0_n_n_0_1_11 : GatherDims S50000x1 S1600000x1 S1600000x1 where
  offsetDims := [1]
  collapsedSliceDims := [0]
  operandBatchingDims := []
  startIndicesBatchingDims := []
  startIndexMap := [0]
  indexVectorDim := 1
  sliceSizes := ![1, 1]
  wf := gather_S50000x1_S1600000x1_S1600000x1_1_0_n_n_0_1_11_wf
def gather_S1600000x1_S1600000x1_S1600000x1_1_0_n_n_0_1_11 : GatherDims S1600000x1 S1600000x1 S1600000x1 where
  offsetDims := [1]
  collapsedSliceDims := [0]
  operandBatchingDims := []
  startIndicesBatchingDims := []
  startIndexMap := [0]
  indexVectorDim := 1
  sliceSizes := ![1, 1]
  wf := gather_S1600000x1_S1600000x1_S1600000x1_1_0_n_n_0_1_11_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S5000x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S5000x2.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_0) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v70) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v68) S5000x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v71) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x32 : Shape := ⟨2, ![50000, 32]⟩
abbrev S1x64 : Shape := ⟨2, ![1, 64]⟩
abbrev S32x32 : Shape := ⟨2, ![32, 32]⟩
abbrev S32 : Shape := ⟨1, ![32]⟩
abbrev S2x1600000 : Shape := ⟨2, ![2, 1600000]⟩
abbrev S1600000 : Shape := ⟨1, ![1600000]⟩
abbrev S1x1600000 : Shape := ⟨2, ![1, 1600000]⟩
abbrev S_ : Shape := ⟨0, ![]⟩
abbrev S1600000x1 : Shape := ⟨2, ![1600000, 1]⟩
abbrev S1600000x32 : Shape := ⟨2, ![1600000, 32]⟩
abbrev S1600000x64 : Shape := ⟨2, ![1600000, 64]⟩
abbrev S64x1 : Shape := ⟨2, ![64, 1]⟩
abbrev S50000x1 : Shape := ⟨2, ![50000, 1]⟩
abbrev S50000 : Shape := ⟨1, ![50000]⟩
abbrev S1x32 : Shape := ⟨2, ![1, 32]⟩

abbrev nBuf : Space → Nat
  | .hbm => 105
  | .vmem => 0
  | .smem => 0
  | _ => 0

abbrev bufTy : (tb : Table) → Fin (tcTables nBuf tb) → BufTy
  | .hbm, ⟨0, _⟩ => ⟨S50000x32, .f32⟩
  | .hbm, ⟨1, _⟩ => ⟨S1x64, .f32⟩
  | .hbm, ⟨2, _⟩ => ⟨S32x32, .f32⟩
  | .hbm, ⟨3, _⟩ => ⟨S32, .f32⟩
  | .hbm, ⟨4, _⟩ => ⟨S2x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x32, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x32, .f32⟩
  | .hbm, ⟨28, _⟩ => ⟨S1600000x64, .f32⟩
  | .hbm, ⟨29, _⟩ => ⟨S64x1, .f32⟩
  | .hbm, ⟨30, _⟩ => ⟨S1600000x1, .f32⟩
  | .hbm, ⟨31, _⟩ => ⟨S1600000x1, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x1, .f32⟩
  | .hbm, ⟨41, _⟩ => ⟨S1600000x1, .f32⟩
  | .hbm, ⟨42, _⟩ => ⟨S1600000x1, .f32⟩
  | .hbm, ⟨43, _⟩ => ⟨S1600000x1, .f32⟩
  | .hbm, ⟨44, _⟩ => ⟨S_, .f32⟩
  | .hbm, ⟨45, _⟩ => ⟨S50000x1, .f32⟩
  | .hbm, ⟨46, _⟩ => ⟨S1600000x1, .i32⟩
  | .hbm, ⟨47, _⟩ => ⟨S50000x1, .f32⟩
  | .hbm, ⟨48, _⟩ => ⟨S_, .f32⟩
  | .hbm, ⟨49, _⟩ => ⟨S50000x1, .f32⟩
  | .hbm, ⟨50, _⟩ => ⟨S50000x1, .f32⟩
  | .hbm, ⟨51, _⟩ => ⟨S_, .f32⟩
  | .hbm, ⟨52, _⟩ => ⟨S50000x1, .f32⟩
  | .hbm, ⟨53, _⟩ => ⟨S50000x1, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x1, .f32⟩
  | .hbm, ⟨63, _⟩ => ⟨S1600000x1, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x1, .f32⟩
  | .hbm, ⟨73, _⟩ => ⟨S1600000x1, .f32⟩
  | .hbm, ⟨74, _⟩ => ⟨S50000x1, .f32⟩
  | .hbm, ⟨75, _⟩ => ⟨S50000x1, .f32⟩
  | .hbm, ⟨76, _⟩ => ⟨S50000, .f32⟩
  | .hbm, ⟨77, _⟩ => ⟨S32x32, .f32⟩
  | .hbm, ⟨78, _⟩ => ⟨S50000x32, .f32⟩
  | .hbm, ⟨79, _⟩ => ⟨S1x32, .f32⟩
  | .hbm, ⟨80, _⟩ => ⟨S50000x32, .f32⟩
  | .hbm, ⟨81, _⟩ => ⟨S50000x32, .f32⟩
  | .hbm, ⟨82, _⟩ => ⟨S50000x1, .f32⟩
  | .hbm, ⟨83, _⟩ => ⟨S50000x32, .f32⟩
  | .hbm, ⟨84, _⟩ => ⟨S50000x32, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x32, .f32⟩
  | .hbm, ⟨94, _⟩ => ⟨S1600000x32, .f32⟩
  | .hbm, ⟨95, _⟩ => ⟨S1600000x32, .f32⟩
  | .hbm, ⟨96, _⟩ => ⟨S_, .f32⟩
  | .hbm, ⟨97, _⟩ => ⟨S50000x32, .f32⟩
  | .hbm, ⟨98, _⟩ => ⟨S1600000x1, .i32⟩
  | .hbm, ⟨99, _⟩ => ⟨S50000x32, .f32⟩
  | .hbm, ⟨100, _⟩ => ⟨S50000x32, .f32⟩
  | .hbm, ⟨101, _⟩ => ⟨S_, .f32⟩
  | .hbm, ⟨102, _⟩ => ⟨S50000x32, .f32⟩
  | .hbm, ⟨103, _⟩ => ⟨S50000x32, .f32⟩
  | .hbm, ⟨104, _⟩ => ⟨S50000x32, .f32⟩
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_c_7 : Ref sig .tc := ⟨.hbm, 54, rfl⟩
abbrev main_v39 : Ref sig .tc := ⟨.hbm, 55, rfl⟩
abbrev main_v40 : Ref sig .tc := ⟨.hbm, 56, rfl⟩
abbrev main_c_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_c_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_c_11 : Ref sig .tc := ⟨.hbm, 85, rfl⟩
abbrev main_v66 : Ref sig .tc := ⟨.hbm, 86, rfl⟩
abbrev main_v67 : Ref sig .tc := ⟨.hbm, 87, rfl⟩
abbrev main_c_12 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_13 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_14 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x32_S1600000x32_S1600000x64_d1 : Shape.Concatenates [S1600000x32, S1600000x32] S1600000x64 1
  transposes_S1x64_S64x1_1_0 : S1x64.Transposes [1, 0] S64x1
  bcast_S_S50000x1 : S_.BroadcastsInDim S50000x1 (![] : Fin 0 → Fin S50000x1.rank)
  shapeCasts_S50000x1_S50000 : S50000x1.ShapeCasts S50000
  transposes_S32x32_S32x32_1_0 : S32x32.Transposes [1, 0] S32x32
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  bcast_S1600000x1_S1600000x32_0_1 : S1600000x1.BroadcastsInDim S1600000x32 (![0, 1] : Fin 2 → Fin S1600000x32.rank)
  bcast_S_S50000x32 : S_.BroadcastsInDim S50000x32 (![] : Fin 0 → Fin S50000x32.rank)
  gather_S50000x32_S1600000x1_S1600000x32_1_0_n_n_0_1_132_wf : GatherDims.WF S50000x32 S1600000x1 S1600000x32 [1] [0] [] [0] [] 1 ![1, 32]
  dot_S1600000x64_S64x1_S1600000x1_1_0_0_1_n_n_wf : DotDims.WF S1600000x64 S64x1 S1600000x1 [1] [0] [0] [1] [] []
  gather_S1600000x1_S1600000x1_S1600000x1_1_0_n_n_0_1_11_wf : GatherDims.WF S1600000x1 S1600000x1 S1600000x1 [1] [0] [] [0] [] 1 ![1, 1]
  scatter_S50000x1_S1600000x1_S1600000x1_1_0_0_1_wf : ScatterDims.WF S50000x1 S1600000x1 S1600000x1 [1] [0] [0] 1
  gather_S50000x1_S1600000x1_S1600000x1_1_0_n_n_0_1_11_wf : GatherDims.WF S50000x1 S1600000x1 S1600000x1 [1] [0] [] [0] [] 1 ![1, 1]
  dot_S50000x32_S32x32_S50000x32_1_0_0_1_n_n_wf : DotDims.WF S50000x32 S32x32 S50000x32 [1] [0] [0] [1] [] []
  scatter_S50000x32_S1600000x1_S1600000x32_1_0_0_1_wf : ScatterDims.WF S50000x32 S1600000x1 S1600000x32 [1] [0] [0] 1

variable [Facts₀]

def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf
def gather_S1600000x1_S1600000x1_S1600000x1_1_0_n_n_0_1_11 : GatherDims S1600000x1 S1600000x1 S1600000x1 where
  offsetDims := [1]
  collapsedSliceDims := [0]
  operandBatchingDims := []
  startIndicesBatchingDims := []
  startIndexMap := [0]
  indexVectorDim := 1
  sliceSizes := ![1, 1]
  wf := gather_S1600000x1_S1600000x1_S1600000x1_1_0_n_n_0_1_11_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def gather_S50000x1_S1600000x1_S1600000x1_1_0_n_n_0_1_11 : GatherDims S50000x1 S1600000x1 S1600000x1 where
  offsetDims := [1]
  collapsedSliceDims := [0]
  operandBatchingDims := []
  startIndicesBatchingDims := []
  startIndexMap := [0]
  indexVectorDim := 1
  sliceSizes := ![1, 1]
  wf := gather_S50000x1_S1600000x1_S1600000x1_1_0_n_n_0_1_11_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf

class Facts : Prop extends Facts₀ where

variable [Facts]
-- ==== Proof.KernelRun.lean ====
/-
  The idealized kernel's run with its RESULT named. The program is two grid regions among two stretches of host
  operations; the generated frame walks the buffer contents through the four segments (`W0` at launch, `W1` after the
  first stretch, `W2` after the first region's write-backs, `W3` after the second stretch, `W4` after the second
  region's write-backs) and keeps, of the final state, only that the arguments are unchanged. The same launch over the
  same segments also pins every unscoped buffer of the final state to `W4`; read at the result buffer this says the
  result array ends at `W4`'s contents there, which is what the second region's write-backs leave in its output window.
-/
import proofs.«112513_j47115791237987_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    `W4` and the six arguments end as launched. -/
theorem run_W4 : θ_run defs (onTc (τ := τ) (main (F := F))) ⟨m, fun _ => 0, ρ⟩ (fun r => ∀ c : Dev nD,
      r.2.mem ((c.tc : Thread nD τ).loc main_v71) = W4 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v71 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

/-- The result buffer is the second region's output window 4: `W4` there is what that region's write-backs leave. -/
theorem W4_result (c : Dev nD) :
    W4 m ρ c (Proc.devRef .tc main_v71) = (dat1 (V3 m ρ) c).arrAt 4 cfg1.N :=
  W4_arr m ρ c 4

end Cert.KernelIdeal.ValueRun

end
-- ==== Proof.LibKeepdims.lean ====
/-
  A reduced axis kept as a unit column, and the column spread back over the rows.

  A reduction over the last axis of an `[a, b]` array with the reduced axis kept (`keepdims`) is carried as an `[a]`
  vector viewed as an `[a, 1]` column and then broadcast to `[a, b]`. Read at explicit coordinates: the column at
  `(i, 0)` is the vector at `i`, and the broadcast at `(i, j)` is the column at `(i, 0)`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to an `[a, 1]` column reads, at `(i, u)`, the vector at `i`: the two indices have the same
    row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(i, j)`, the column at `(i, 0)`: the unit axis is read at `0`,
    the other at the same coordinate (when `a = 1` that coordinate is `0` too). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.Region1.lean ====
/-
  The second region (the finalize step), as one whole-array function.

  Its grid has ten points; at point `t` every window holds rows `5000·t … 5000·t + 4999` of its array (all 32
  columns, or the one column of the diagonal term). The body stores, at row `p` and column `q` of the block,
  `x − 1·(d·y + a)` with `x`, `y`, `a` read at `(p, q)` and the diagonal term `d` at `(p, 0)`. The ten output blocks
  are disjoint and fill the `[50000, 32]` result, so after the region the result array is `finalize x y d a`, read
  at the same row and column of the four arrays as the region finds them.
-/
import proofs.«112513_j47115791237987_2_alg».proof.Proof.Gen.KernelIdeal.Frame
import proofs.«112513_j47115791237987_2_alg».proof.Proof.LibKeepdims
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

/-- The region's result as a function of its four input arrays: `x − 1·(d·y + a)`, the diagonal term read in its one
    column. The factor is the float literal `1.0`, kept as its word. -/
def finalize (x y : FVec Ideal S50000x32 .f32) (d : FVec Ideal S50000x1 .f32) (a : FVec Ideal S50000x32 .f32) :
    FVec Ideal S50000x32 .f32 :=
  fun i => x i - Scalar.ofBits (F := Ideal) .f32 0x3F800000#32 * (d (ix2 (i 0) (0 : Fin 1)) * y i + a i)

theorem hz2 : (![0, 0] : Fin 2 → Nat) = fun _ => 0 := funext fun a => by fin_cases a <;> rfl

/-- The body's stored value at row `p`, column `q` of the block, from the four loaded blocks. -/
theorem pay_apply (v0 : Vec Ideal S5000x1 .f32) (v2 v6 v9 : Vec Ideal S5000x32 .f32) (p : Fin 5000) (q : Fin 32) :
    k1_pay1 (F := Ideal) v0 v2 v6 v9 (ix2 p q)
      = v9 (ix2 p q) - Scalar.ofBits (F := Ideal) .f32 0x3F800000#32 * (v0 (ix2 p (0 : Fin 1)) * v2 (ix2 p q) + v6 (ix2 p q)) := by
  unfold k1_pay1
  simp only [subf_apply, mulf_apply, addf_apply, broadcast_apply, shapeCast_self]
  rw [Cert.LibKeepdims.broadcastTo_a1_ab_apply]

/-- The block maps over the grid: every window sits at block row `t`, block column `0`. -/
theorem idx_facts : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = win1_4.index t (0 : Fin 2)
    ∧ win1_2.index t (1 : Fin 2) = 0
    ∧ win1_3.index t (0 : Fin 2) = win1_4.index t (0 : Fin 2)
    ∧ win1_3.index t (1 : Fin 2) = 0
    ∧ win1_4.index t (0 : Fin 2) ≤ 9
    ∧ win1_4.index t (1 : Fin 2) = 0 :=
  (by decide +kernel : ∀ t : Fin grid1.N, _)

/-- Every block row is some point's. -/
theorem idx_onto : ∀ q0 : Fin 10, ∃ t : Fin cfg1.N, win1_4.index t = ![q0.val, 0] :=
  (by decide +kernel : ∀ q0 : Fin 10, ∃ t : Fin grid1.N, win1_4.index t = ![q0.val, 0])

variable (V : (c : Dev nD) → (b : Ref sig .tc) → Buf (Elt Ideal) ((c : Thread nD τ).loc b))

/-- The node window's block at point `t` reads the node array at the output block's index. -/
theorem x_at (c : Dev nD) (t : Fin cfg1.N) (p : Fin 5000) (q : Fin 32) :
    iblk1 V c 0 t (ix2 p q) = V c main_arg0 (((cfg1.win 4).blk t).view.emb (ix2 p q)) := by
  obtain ⟨e0, e1, e2, e3, e4, e5, e6, e7, e8, e9⟩ := idx_facts t
  have hp : p.val < 5000 := p.isLt
  have hq : q.val < 32 := q.isLt
  show V c main_arg0 (((cfg1.win 0).blk t).view.emb (ix2 p q)) = _
  refine congrArg (V c main_arg0) ?_
  funext a; apply Fin.ext
  match a with
  | ⟨0, _⟩ => show win1_0.index t (0 : Fin 2) * 5000 + 1 * p.val = win1_4.index t (0 : Fin 2) * 5000 + 1 * p.val; omega
  | ⟨1, _⟩ => show win1_0.index t (1 : Fin 2) * 32 + 1 * q.val = win1_4.index t (1 : Fin 2) * 32 + 1 * q.val; omega

/-- The linear layer's window reads its array at the output block's index. -/
theorem y_at (c : Dev nD) (t : Fin cfg1.N) (p : Fin 5000) (q : Fin 32) :
    iblk1 V c 1 t (ix2 p q) = V c main_v5_0 (((cfg1.win 4).blk t).view.emb (ix2 p q)) := by
  obtain ⟨e0, e1, e2, e3, e4, e5, e6, e7, e8, e9⟩ := idx_facts t
  have hp : p.val < 5000 := p.isLt
  have hq : q.val < 32 := q.isLt
  show V c main_v5_0 (((cfg1.win 1).blk t).view.emb (ix2 p q)) = _
  refine congrArg (V c main_v5_0) ?_
  funext a; apply Fin.ext
  match a with
  | ⟨0, _⟩ => show win1_1.index t (0 : Fin 2) * 5000 + 1 * p.val = win1_4.index t (0 : Fin 2) * 5000 + 1 * p.val; omega
  | ⟨1, _⟩ => show win1_1.index t (1 : Fin 2) * 32 + 1 * q.val = win1_4.index t (1 : Fin 2) * 32 + 1 * q.val; omega

/-- The aggregate's window reads its array at the output block's index. -/
theorem a_at (c : Dev nD) (t : Fin cfg1.N) (p : Fin 5000) (q : Fin 32) :
    iblk1 V c 3 t (ix2 p q) = V c main_v68 (((cfg1.win 4).blk t).view.emb (ix2 p q)) := by
  obtain ⟨e0, e1, e2, e3, e4, e5, e6, e7, e8, e9⟩ := idx_facts t
  have hp : p.val < 5000 := p.isLt
  have hq : q.val < 32 := q.isLt
  show V c main_v68 (((cfg1.win 3).blk t).view.emb (ix2 p q)) = _
  refine congrArg (V c main_v68) ?_
  funext a; apply Fin.ext
  match a with
  | ⟨0, _⟩ => show win1_3.index t (0 : Fin 2) * 5000 + 1 * p.val = win1_4.index t (0 : Fin 2) * 5000 + 1 * p.val; omega
  | ⟨1, _⟩ => show win1_3.index t (1 : Fin 2) * 32 + 1 * q.val = win1_4.index t (1 : Fin 2) * 32 + 1 * q.val; omega

/-- The diagonal term's window reads its one column at the output block's row. -/
theorem d_at (c : Dev nD) (t : Fin cfg1.N) (p : Fin 5000) (q : Fin 32) :
    iblk1 V c 2 t (ix2 p (0 : Fin 1)) = V c main_v70 (ix2 ((((cfg1.win 4).blk t).view.emb (ix2 p q)) 0) (0 : Fin 1)) := by
  obtain ⟨e0, e1, e2, e3, e4, e5, e6, e7, e8, e9⟩ := idx_facts t
  have hp : p.val < 5000 := p.isLt
  show V c main_v70 (((cfg1.win 2).blk t).view.emb (ix2 p (0 : Fin 1))) = _
  refine congrArg (V c main_v70) ?_
  funext a; apply Fin.ext
  match a with
  | ⟨0, _⟩ => show win1_2.index t (0 : Fin 2) * 5000 + 1 * p.val = win1_4.index t (0 : Fin 2) * 5000 + 1 * p.val; omega
  | ⟨1, _⟩ => show win1_2.index t (1 : Fin 2) * 1 + 1 * 0 = 0; omega

/-- What point `t` writes back is block `t` of `finalize` of the four arrays as the region finds them. -/
theorem flushed_eq (c : Dev nD) (t : Fin cfg1.N) :
    (dat1 V c).flushed 4 t = ((cfg1.win 4).blk t).view.read (Elt Ideal)
      (finalize (V c main_arg0) (V c main_v5_0) (V c main_v70) (V c main_v68)) := by
  show (cfg1.win 4).cut (grid1.coords t) ((dat1 V c).after 4 t) = _
  rw [after1_4]
  unfold out1_4
  rw [View.canon_unit_zero hz2]
  simp only [View.ld_unit_zero (S := S5000x32) hz2, View.ld_unit_zero (S := S5000x1) hz2]
  funext j
  obtain ⟨p, q, rfl⟩ : ∃ (p : Fin 5000) (q : Fin 32), j = ix2 p q := ⟨j 0, j 1, eq_ix2 j⟩
  refine (pay_apply (iblk1 V c 2 t) (iblk1 V c 1 t) (iblk1 V c 3 t) (iblk1 V c 0 t) p q).trans ?_
  show _ = finalize (V c main_arg0) (V c main_v5_0) (V c main_v70) (V c main_v68) (((cfg1.win 4).blk t).view.emb (ix2 p q))
  unfold finalize
  rw [x_at V c t p q, y_at V c t p q, a_at V c t p q, d_at V c t p q]

/-- An index of the result is in point `t`'s block iff each coordinate is in the block's range on its axis. -/
theorem mem_blk (t : Fin cfg1.N) (i : S50000x32.Idx) :
    i ∈ ((cfg1.win 4).blk t).view.set ↔ ∀ a : Fin 2, win1_4.index t a * S5000x32.size a ≤ (i a).val
      ∧ (i a).val < win1_4.index t a * S5000x32.size a + S5000x32.size a := by
  show i ∈ ((View.whole main_v71).slice (win1_4.rect t)).set ↔ _
  rw [View.set_slice_whole, Rect.mem_set_unit]
  exact Iff.rfl

/-- Every index of the result lies in the block of the point numbered by its row divided by 5000. -/
theorem cover (i : S50000x32.Idx) :
    ∃ t : Fin cfg1.N, (cfg1.win 4).flush t = true ∧ i ∈ ((cfg1.win 4).blk t).view.set := by
  have hi0 : (i 0).val < 50000 := (i 0).isLt
  have hi1 : (i 1).val < 32 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 32 ≤ (i 1).val ∧ (i 1).val < win1_4.index t (1 : Fin 2) * 32 + 32; omega

/-- THE RESULT ARRAY after the region: `finalize` of the four arrays as the region finds them. -/
theorem final (c : Dev nD) :
    (dat1 V c).arrAt 4 cfg1.N = finalize (V c main_arg0) (V c main_v5_0) (V c main_v70) (V c main_v68) :=
  (dat1 V c).arrAt_eq_of_cover 4 _ (fun t _ => flushed_eq V c t) cover

end Cert.KernelIdeal.Region1

end
-- ==== Proof.Region0.lean ====
/-
  The first region (the node projections), as two whole-array functions.

  Its grid has ten points; at point `t` the node window and both output windows hold rows `5000·t … 5000·t + 4999` of
  their arrays, while the weight matrix, the bias and the sheaf vector are each one block, the same at every point.
  At row `p` of the block the body stores
    * into the first output, column `q`: the product of row `p` of the nodes with column `q` of the weight matrix
      — a sum over the 32 features, into a zero accumulator — plus the bias at `q` (the two changes of float format on
      the way are the identity on extended reals);
    * into the second output, column `c ∈ {0, 1}`: the sum over the 32 features `k` of the node's feature `k` times the
      sheaf vector's entry `32·c + k` — its first half for column 0, its second half for column 1.
  The ten blocks of each output are disjoint and fill it, so after the region the two output arrays are `linear` and
  `proj` of the arrays as the region finds them.
-/
import proofs.«112513_j47115791237987_2_alg».proof.Proof.Gen.KernelIdeal.Frame
import proofs.«112513_j47115791237987_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

/-- The first output: nodes times weights plus bias, `(∑ₖ x[n,k]·w[k,q]) + b[q]`. -/
def linear (x : FVec Ideal S50000x32 .f32) (w : FVec Ideal S32x32 .f32) (b : FVec Ideal S32 .f32) :
    FVec Ideal S50000x32 .f32 :=
  fun i => (∑ k : Fin 32, x (ix2 (i 0) k) * w (ix2 k (i 1))) + b (ix1 (i 1))

/-- The sheaf vector's entry for output column `c` and feature `k`: number `32·c + k`. -/
def sheafAt (c : Fin 2) (k : Fin 32) : Fin 64 := ⟨32 * c.val + k.val, by have := c.isLt; have := k.isLt; omega⟩

/-- The second output: the two projections, `∑ₖ x[n,k]·s[0, 32·c + k]` in column `c`. -/
def proj (x : FVec Ideal S50000x32 .f32) (s : FVec Ideal S1x64 .f32) : FVec Ideal S50000x2 .f32 :=
  fun i => ∑ k : Fin 32, x (ix2 (i 0) k) * s (ix2 (0 : Fin 1) (sheafAt (i 1) k))

theorem hz2 : (![0, 0] : Fin 2 → Nat) = fun _ => 0 := funext fun a => by fin_cases a <;> rfl
theorem hz1 : (![0] : Fin 1 → Nat) = fun _ => 0 := funext fun a => by fin_cases a; rfl

/-! ## The matrix product at an index -/

theorem lhs_0 (i : S5000x32.Idx) (q : dot_S5000x32_S32x32_S5000x32_1_0_0_1_n_n.contr.Idx) : (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
theorem lhs_1 (i : S5000x32.Idx) (q : dot_S5000x32_S32x32_S5000x32_1_0_0_1_n_n.contr.Idx) : (dot_S5000x32_S32x32_S5000x32_1_0_0_1_n_n.lhsIdx i q 1).val = (q ⟨0, by decide⟩).val :=
  dot_S5000x32_S32x32_S5000x32_1_0_0_1_n_n.lhsIdx_val_of_single rfl i q
theorem rhs_0 (i : S5000x32.Idx) (q : dot_S5000x32_S32x32_S5000x32_1_0_0_1_n_n.contr.Idx) : (dot_S5000x32_S32x32_S5000x32_1_0_0_1_n_n.rhsIdx i q 0).val = (q ⟨0, by decide⟩).val :=
  dot_S5000x32_S32x32_S5000x32_1_0_0_1_n_n.rhsIdx_val_of_single rfl i q
theorem rhs_1 (i : S5000x32.Idx) (q : dot_S5000x32_S32x32_S5000x32_1_0_0_1_n_n.contr.Idx) : (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

/-- The body's matrix product into the zero accumulator, at row `p` and column `q`: the sum over the 32 features. -/
theorem matmul_at (a : FVec Ideal S5000x32 .bf16) (b : FVec Ideal S32x32 .bf16) (p : Fin 5000) (q : Fin 32) :
    matmul dot_S5000x32_S32x32_S5000x32_1_0_0_1_n_n none a b (constant (F := Ideal) S5000x32 .f32 0x00000000#32) (ix2 p q)
      = ∑ k : Fin 32, a (ix2 p k) * b (ix2 k q) := by
  simp only [matmul]
  rw [Ideal.matmul_constant_zero_apply, ← Equiv.sum_comp (contrEquiv1 dot_S5000x32_S32x32_S5000x32_1_0_0_1_n_n 32 rfl rfl).symm]
  refine Finset.sum_congr rfl fun k _ => ?_
  have hk := contrEquiv1_symm_val dot_S5000x32_S32x32_S5000x32_1_0_0_1_n_n 32 rfl rfl k
  have el : dot_S5000x32_S32x32_S5000x32_1_0_0_1_n_n.lhsIdx (ix2 p q) ((contrEquiv1 dot_S5000x32_S32x32_S5000x32_1_0_0_1_n_n 32 rfl rfl).symm k) = ix2 p k := funext fun ax => Fin.ext (by
    match ax with
    | ⟨0, _⟩ => exact lhs_0 _ _
    | ⟨1, _⟩ => exact (lhs_1 _ _).trans hk)
  have er : dot_S5000x32_S32x32_S5000x32_1_0_0_1_n_n.rhsIdx (ix2 p q) ((contrEquiv1 dot_S5000x32_S32x32_S5000x32_1_0_0_1_n_n 32 rfl rfl).symm k) = ix2 k q := funext fun ax => Fin.ext (by
    match ax with
    | ⟨0, _⟩ => exact (rhs_0 _ _).trans hk
    | ⟨1, _⟩ => exact rhs_1 _ _)
  rw [el, er]

/-! ## The two stored values at an index -/

/-- The first store at row `p`, column `q` of the block. -/
theorem pay1_apply (v0 : Vec Ideal S5000x32 .f32) (v2 : Vec Ideal S32x32 .f32) (v6 : Vec Ideal S32 .f32)
    (p : Fin 5000) (q : Fin 32) :
    k0_pay1 (F := Ideal) v0 v2 v6 (ix2 p q) = (∑ k : Fin 32, v0 (ix2 p k) * v2 (ix2 k q)) + v6 (ix1 q) := by
  unfold k0_pay1
  simp only [addf_apply]
  rw [matmul_at, broadcastTo_1b_ab_apply, shapeCast_a_1a_apply]
  simp only [truncf_apply, shapeCast_self]

/-- The lane sum of a `[5000, 32]` block at row `p`: the sum over its 32 columns. -/
theorem rowsum_at (src : FVec Ideal S5000x32 .f32) (hacc : (0x00000000#32 : BitVec 32) = 0x00000000#32) (p : Fin 5000) :
    multiReduction (F := Ideal) .add [1] S5000 src 0x00000000#32 reduces_S5000x32_S5000 (.inl rfl) hacc (ix1 p)
      = ∑ k : Fin 32, src (ix2 p k) := by
  refine (Ideal.multiReduction_add_single src 0x00000000#32 reduces_S5000x32_S5000 (.inl rfl) hacc (ix1 p)).trans ?_
  refine Finset.sum_congr rfl fun k _ => congrArg src ?_
  funext ax; apply Fin.ext
  match ax with
  | ⟨0, _⟩ => rfl
  | ⟨1, _⟩ => rfl

/-- One projection column: a `[1, 32]` row spread over the rows, times the block, summed over the 32 columns, kept as
    a `[5000, 1]` column; at `(p, 0)` it is `∑ₖ v0[p,k]·r[0,k]`. -/
theorem column_at (v0 : Vec Ideal S5000x32 .f32) (r : Vec Ideal S1x32 .f32) (p : Fin 5000) (u : Fin 1) :
    shapeCast S5000x1 (multiReduction (F := Ideal) .add [1] S5000 (mulf v0 (broadcastTo S5000x32 r broadcasts_S1x32_S5000x32)) 0x00000000#32
        reduces_S5000x32_S5000 (.inl rfl) rfl) shapeCasts_S5000_S5000x1 (ix2 p u)
      = ∑ k : Fin 32, v0 (ix2 p k) * r (ix2 (0 : Fin 1) k) := by
  rw [Cert.LibKeepdims.shapeCast_a_a1_apply]
  refine (rowsum_at _ rfl p).trans ?_
  refine Finset.sum_congr rfl fun k _ => ?_
  rw [mulf_apply, broadcastTo_1b_ab_apply]

/-- The second store at row `p`: column 0 from the first loaded half of the sheaf vector, column 1 from the second. -/
theorem pay2_apply (v0 : Vec Ideal S5000x32 .f32) (v11 v12 : Vec Ideal S1x32 .f32) (p : Fin 5000) (c : Fin 2) :
    k0_pay2 (F := Ideal) v0 v11 v12 (ix2 p c)
      = ∑ k : Fin 32, v0 (ix2 p k) * (if c.val = 0 then v11 else v12) (ix2 (0 : Fin 1) k) := by
  unfold k0_pay2
  match c with
  | ⟨0, _⟩ =>
    refine (concatenate_pair_apply_left (t := S5000x2) (s₁ := S5000x1) (s₂ := S5000x1) (1 : Fin 2) _ _ concatenates_S5000x1_S5000x1_S5000x2_d1 (ix2 p (⟨0, by omega⟩ : Fin 2)) rfl
      (ix2 p (0 : Fin 1)) (fun b => by match b with | ⟨0, _⟩ => rfl | ⟨1, _⟩ => rfl)).trans ?_
    exact column_at v0 v11 p 0
  | ⟨1, _⟩ =>
    refine (concatenate_pair_apply_right (t := S5000x2) (s₁ := S5000x1) (s₂ := S5000x1) (1 : Fin 2) _ _ concatenates_S5000x1_S5000x1_S5000x2_d1 (ix2 p (⟨1, by omega⟩ : Fin 2)) rfl rfl
      (ix2 p (0 : Fin 1)) (fun b hb => by
        match b with
        | ⟨0, _⟩ => rfl
        | ⟨1, _⟩ => exact absurd rfl hb) rfl).trans ?_
    exact column_at v0 v12 p 0

/-! ## The block maps over the grid -/

theorem idx_facts : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) ≤ 9 ∧ win0_4.index t (1 : Fin 2) = 0
    ∧ win0_5.index t (0 : Fin 2) = win0_4.index t (0 : Fin 2) ∧ win0_5.index t (1 : Fin 2) = 0 :=
  (by decide +kernel : ∀ t : Fin grid0.N, _)

theorem idx_onto4 : ∀ q0 : Fin 10, ∃ t : Fin cfg0.N, win0_4.index t = ![q0.val, 0] :=
  (by decide +kernel : ∀ q0 : Fin 10, ∃ t : Fin grid0.N, win0_4.index t = ![q0.val, 0])
theorem idx_onto5 : ∀ q0 : Fin 10, ∃ t : Fin cfg0.N, win0_5.index t = ![q0.val, 0] :=
  (by decide +kernel : ∀ q0 : Fin 10, ∃ t : Fin grid0.N, win0_5.index t = ![q0.val, 0])

variable (V : (c : Dev nD) → (b : Ref sig .tc) → Buf (Elt Ideal) ((c : Thread nD τ).loc b))

/-! ## What a point writes back -/

/-- The node window's block at point `t`, row `p`, column `k`, is the node array at the output block's row. -/
theorem node_at (c : Dev nD) (t : Fin cfg0.N) (p : Fin 5000) (k : Fin 32) (q : Fin 32) :
    iblk0 V c 0 t (ix2 p k) = V c main_arg0 (ix2 ((((cfg0.win 4).blk t).view.emb (ix2 p q)) 0) k) := by
  obtain ⟨e0, e1, -⟩ := idx_facts t
  have hp : p.val < 5000 := p.isLt
  have hk : k.val < 32 := k.isLt
  show V c main_arg0 (((cfg0.win 0).blk t).view.emb (ix2 p k)) = _
  refine congrArg (V c main_arg0) ?_
  funext a; apply Fin.ext
  match a with
  | ⟨0, _⟩ => show win0_0.index t (0 : Fin 2) * 5000 + 1 * p.val = win0_4.index t (0 : Fin 2) * 5000 + 1 * p.val; omega
  | ⟨1, _⟩ => show win0_0.index t (1 : Fin 2) * 32 + 1 * k.val = k.val; omega

/-- The weight window's one block is the whole weight array. -/
theorem weight_at (c : Dev nD) (t : Fin cfg0.N) (k q : Fin 32) :
    iblk0 V c 1 t (ix2 k q) = V c main_v4 (ix2 k q) := by
  obtain ⟨-, -, e2, e3, -⟩ := idx_facts t
  have hk : k.val < 32 := k.isLt
  have hq : q.val < 32 := q.isLt
  show V c main_v4 (((cfg0.win 1).blk t).view.emb (ix2 k q)) = _
  refine congrArg (V c main_v4) ?_
  funext a; apply Fin.ext
  match a with
  | ⟨0, _⟩ => show win0_1.index t (0 : Fin 2) * 32 + 1 * k.val = k.val; omega
  | ⟨1, _⟩ => show win0_1.index t (1 : Fin 2) * 32 + 1 * q.val = q.val; omega

/-- The bias window's one block is the whole bias array. -/
theorem bias_at (c : Dev nD) (t : Fin cfg0.N) (q : Fin 32) :
    iblk0 V c 2 t (ix1 q) = V c main_arg3 (ix1 q) := by
  obtain ⟨-, -, -, -, e4, -⟩ := idx_facts t
  have hq : q.val < 32 := q.isLt
  show V c main_arg3 (((cfg0.win 2).blk t).view.emb (ix1 q)) = _
  refine congrArg (V c main_arg3) ?_
  funext a; apply Fin.ext
  match a with
  | ⟨0, _⟩ => show win0_2.index t (0 : Fin 1) * 32 + 1 * q.val = q.val; omega

/-- The sheaf window's one block is the whole sheaf vector. -/
theorem sheaf_at (c : Dev nD) (t : Fin cfg0.N) (j : Fin 64) :
    iblk0 V c 3 t (ix2 (0 : Fin 1) j) = V c main_arg1 (ix2 (0 : Fin 1) j) := by
  obtain ⟨-, -, -, -, -, e5, e6, -⟩ := idx_facts t
  have hj : j.val < 64 := j.isLt
  show V c main_arg1 (((cfg0.win 3).blk t).view.emb (ix2 (0 : Fin 1) j)) = _
  refine congrArg (V c main_arg1) ?_
  funext a; apply Fin.ext
  match a with
  | ⟨0, _⟩ => show win0_3.index t (0 : Fin 2) * 1 + 1 * 0 = 0; omega
  | ⟨1, _⟩ => show win0_3.index t (1 : Fin 2) * 64 + 1 * j.val = j.val; omega

/-- What point `t` writes back into the first output is block `t` of `linear`. -/
theorem flushed4_eq (c : Dev nD) (t : Fin cfg0.N) :
    (dat0 V c).flushed 4 t = ((cfg0.win 4).blk t).view.read (Elt Ideal)
      (linear (V c main_arg0) (V c main_v4) (V c main_arg3)) := by
  show (cfg0.win 4).cut (grid0.coords t) ((dat0 V c).after 4 t) = _
  rw [after0_4]
  unfold out0_4
  rw [View.canon_unit_zero hz2]
  simp only [View.ld_unit_zero (S := S5000x32) hz2, View.ld_unit_zero (S := S32x32) hz2, View.ld_unit_zero (S := S32) hz1]
  funext j
  obtain ⟨p, q, rfl⟩ : ∃ (p : Fin 5000) (q : Fin 32), j = ix2 p q := ⟨j 0, j 1, eq_ix2 j⟩
  refine (pay1_apply (iblk0 V c 0 t) (iblk0 V c 1 t) (iblk0 V c 2 t) p q).trans ?_
  show _ = linear (V c main_arg0) (V c main_v4) (V c main_arg3) (((cfg0.win 4).blk t).view.emb (ix2 p q))
  obtain ⟨-, -, -, -, -, -, -, e7, e8, -⟩ := idx_facts t
  have hq : q.val < 32 := q.isLt
  have hcol : (((cfg0.win 4).blk t).view.emb (ix2 p q)) 1 = q := by
    apply Fin.ext
    show win0_4.index t (1 : Fin 2) * 32 + 1 * q.val = q.val; omega
  unfold linear
  rw [hcol, bias_at V c t q]
  refine congrArg (· + V c main_arg3 (ix1 q)) ?_
  refine Finset.sum_congr rfl fun k _ => ?_
  rw [node_at V c t p k q, weight_at V c t k q]

/-- What point `t` writes back into the second output is block `t` of `proj`. -/
theorem flushed5_eq (c : Dev nD) (t : Fin cfg0.N) :
    (dat0 V c).flushed 5 t = ((cfg0.win 5).blk t).view.read (Elt Ideal)
      (proj (V c main_arg0) (V c main_arg1)) := by
  show (cfg0.win 5).cut (grid0.coords t) ((dat0 V c).after 5 t) = _
  rw [after0_5]
  unfold out0_5
  rw [View.canon_unit_zero hz2]
  simp only [View.ld_unit_zero (S := S5000x32) hz2]
  funext j
  obtain ⟨p, cc, rfl⟩ : ∃ (p : Fin 5000) (cc : Fin 2), j = ix2 p cc := ⟨j 0, j 1, eq_ix2 j⟩
  refine (pay2_apply (iblk0 V c 0 t) (View.ld (iblk0 V c 3 t) r0_3) (View.ld (iblk0 V c 3 t) r0_4) p cc).trans ?_
  show _ = proj (V c main_arg0) (V c main_arg1) (((cfg0.win 5).blk t).view.emb (ix2 p cc))
  obtain ⟨e0, e1, -, -, -, -, -, e7, e8, e9, e10⟩ := idx_facts t
  have hp : p.val < 5000 := p.isLt
  have hc : cc.val < 2 := cc.isLt
  have hcol : (((cfg0.win 5).blk t).view.emb (ix2 p cc)) 1 = cc := by
    apply Fin.ext
    show win0_5.index t (1 : Fin 2) * 2 + 1 * cc.val = cc.val; omega
  have hrow : ∀ k : Fin 32, iblk0 V c 0 t (ix2 p k)
      = V c main_arg0 (ix2 ((((cfg0.win 5).blk t).view.emb (ix2 p cc)) 0) k) := fun k => by
    have hk : k.val < 32 := k.isLt
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = win0_5.index t (0 : Fin 2) * 5000 + 1 * p.val; omega
    | ⟨1, _⟩ => show win0_0.index t (1 : Fin 2) * 32 + 1 * k.val = k.val; omega
  have hs : ∀ k : Fin 32, (if cc.val = 0 then View.ld (iblk0 V c 3 t) r0_3 else View.ld (iblk0 V c 3 t) r0_4) (ix2 (0 : Fin 1) k)
      = V c main_arg1 (ix2 (0 : Fin 1) (sheafAt cc k)) := fun k => by
    have hk : k.val < 32 := k.isLt
    match cc with
    | ⟨0, _⟩ =>
      show iblk0 V c 3 t (r0_3.emb (ix2 (0 : Fin 1) k)) = _
      have e : r0_3.emb (ix2 (0 : Fin 1) k) = ix2 (0 : Fin 1) (sheafAt ⟨0, by omega⟩ k) := by
        funext a; apply Fin.ext
        match a with
        | ⟨0, _⟩ => rfl
        | ⟨1, _⟩ => show 0 + 1 * k.val = 32 * 0 + k.val; omega
      rw [e, sheaf_at]
    | ⟨1, _⟩ =>
      show iblk0 V c 3 t (r0_4.emb (ix2 (0 : Fin 1) k)) = _
      have e : r0_4.emb (ix2 (0 : Fin 1) k) = ix2 (0 : Fin 1) (sheafAt ⟨1, by omega⟩ k) := by
        funext a; apply Fin.ext
        match a with
        | ⟨0, _⟩ => rfl
        | ⟨1, _⟩ => show 32 + 1 * k.val = 32 * 1 + k.val; omega
      rw [e, sheaf_at]
  unfold proj
  rw [hcol]
  refine Finset.sum_congr rfl fun k _ => ?_
  rw [hrow k, hs k]

/-! ## The covers -/

theorem mem_blk4 (t : Fin cfg0.N) (i : S50000x32.Idx) :
    i ∈ ((cfg0.win 4).blk t).view.set ↔ ∀ a : Fin 2, win0_4.index t a * S5000x32.size a ≤ (i a).val
      ∧ (i a).val < win0_4.index t a * S5000x32.size a + S5000x32.size a := by
  show i ∈ ((View.whole main_v5_0).slice (win0_4.rect t)).set ↔ _
  rw [View.set_slice_whole, Rect.mem_set_unit]
  exact Iff.rfl

theorem mem_blk5 (t : Fin cfg0.N) (i : S50000x2.Idx) :
    i ∈ ((cfg0.win 5).blk t).view.set ↔ ∀ a : Fin 2, win0_5.index t a * S5000x2.size a ≤ (i a).val
      ∧ (i a).val < win0_5.index t a * S5000x2.size a + S5000x2.size a := by
  show i ∈ ((View.whole main_v5_1).slice (win0_5.rect t)).set ↔ _
  rw [View.set_slice_whole, Rect.mem_set_unit]
  exact Iff.rfl

theorem cover4 (i : S50000x32.Idx) :
    ∃ t : Fin cfg0.N, (cfg0.win 4).flush t = true ∧ i ∈ ((cfg0.win 4).blk t).view.set := by
  have hi0 : (i 0).val < 50000 := (i 0).isLt
  have hi1 : (i 1).val < 32 := (i 1).isLt
  obtain ⟨t, ht⟩ := idx_onto4 ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 32 ≤ (i 1).val ∧ (i 1).val < win0_4.index t (1 : Fin 2) * 32 + 32; omega

theorem cover5 (i : S50000x2.Idx) :
    ∃ t : Fin cfg0.N, (cfg0.win 5).flush t = true ∧ i ∈ ((cfg0.win 5).blk t).view.set := by
  have hi0 : (i 0).val < 50000 := (i 0).isLt
  have hi1 : (i 1).val < 2 := (i 1).isLt
  obtain ⟨t, ht⟩ := idx_onto5 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 2 ≤ (i 1).val ∧ (i 1).val < win0_5.index t (1 : Fin 2) * 2 + 2; omega

/-! ## The two output arrays after the region -/

theorem final4 (c : Dev nD) :
    (dat0 V c).arrAt 4 cfg0.N = linear (V c main_arg0) (V c main_v4) (V c main_arg3) :=
  (dat0 V c).arrAt_eq_of_cover 4 _ (fun t _ => flushed4_eq V c t) cover4

theorem final5 (c : Dev nD) :
    (dat0 V c).arrAt 5 cfg0.N = proj (V c main_arg0) (V c main_arg1) :=
  (dat0 V c).arrAt_eq_of_cover 5 _ (fun t _ => flushed5_eq V c t) cover5

end Cert.KernelIdeal.Region0

end
-- ==== Proof.HostK.lean ====
/-
  The kernel program's host operations, read as functions.

  Before the first region the host cuts the edge list into its two rows — the source node `row` and the target node
  `col` of every edge — and transposes the weight matrix. Between the regions it takes the two projection columns the
  first region produced, gathers the first at each edge's source and the second at its target (a node number is first
  wrapped once if negative, and the gather clamps it into range) and adds them: the value the restriction map's `tanh`
  is applied to (`preTanh`). Everything after that is a chain of host operations on that value and on the linear
  layer's output: the per-node sum of squared maps (`degree`), its shift by one raised to the power −1/2 (`invSqrt`),
  the diagonal term `invSqrt · degree · invSqrt` (`diagTerm`), and the edge messages
  `invSqrt[row] · (−(map · map[reverse edge])) · invSqrt[col] · y[col]` summed into their source nodes (`aggTerm`).
  The chain is only named here, never opened: both programs apply the same one.
-/
import proofs.«112513_j47115791237987_2_alg».proof.Proof.Gen.KernelIdeal.Frame
import proofs.«112513_j47115791237987_2_alg».proof.Proof.Region0
import Idealize.ShloMosaic.Lib.StableHlo.Run
import Idealize.ShloMosaic.PureOps.Ideal

set_option maxRecDepth 16384
set_option maxHeartbeats 4000000

noncomputable section

namespace Cert.KernelIdeal.HostK

open Cert.KernelIdeal Cert.KernelIdeal.Gen
open Idealize.ShloMosaic Idealize.ShloMosaic.TcCoe Idealize.SL.Sem Idealize.ShloMosaic.StableHlo

/-! ## The host operations as functions -/

/-- Row `r` of the edge list as a flat vector of node numbers. -/
def edgeRow0 (e : IVec S2x1600000 32) : IVec S1600000 32 :=
  shapeCast S1600000 (extractStridedSlice S1x1600000 ![0, 0] e slices_S2x1600000_S1x1600000_0_0) shapeCasts_S1x1600000_S1600000
def edgeRow1 (e : IVec S2x1600000 32) : IVec S1600000 32 :=
  shapeCast S1600000 (extractStridedSlice S1x1600000 ![1, 0] e slices_S2x1600000_S1x1600000_1_0) shapeCasts_S1x1600000_S1600000

/-- A vector of positions as a column, a negative position first moved up by the axis length `n`. -/
def wrapIdx (n : BitVec 32) (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 n))) v)

/-- A vector of positions as a column, as it is. -/
def colIdx (v : IVec S1600000 32) : IVec S1600000x1 32 :=
  broadcastInDim S1600000x1 ![0] bcast_S1600000_S1600000x1_0 v

/-- The value under the restriction map's `tanh`: projection column 0 at the edge's source plus column 1 at its target. -/
def preTanh (P : FVec Ideal S50000x2 .f32) (row col : IVec S1600000 32) : FVec Ideal S1600000x1 .f32 :=
  addf
    (Host.gather gather_S50000x1_S1600000x1_S1600000x1_1_0_n_n_0_1_11 (extractStridedSlice S50000x1 ![0, 0] P slices_S50000x2_S50000x1_0_0) (wrapIdx 50000#32 row))
    (Host.gather gather_S50000x1_S1600000x1_S1600000x1_1_0_n_n_0_1_11 (extractStridedSlice S50000x1 ![0, 1] P slices_S50000x2_S50000x1_0_1) (wrapIdx 50000#32 col))

/-- Per node, the sum of the squared maps of the edges leaving it. -/
def degree (z : FVec Ideal S1600000x1 .f32) (row : IVec S1600000 32) : FVec Ideal S50000x1 .f32 :=
  Host.scatterAdd (F := Ideal) scatter_S50000x1_S1600000x1_S1600000x1_1_0_0_1
    (broadcastInDim S50000x1 ![] bcast_S_S50000x1 (constant (F := Ideal) S_ .f32 0x00000000#32))
    (colIdx row) (mulf (Host.tanh (F := Ideal) z) (Host.tanh (F := Ideal) z))

/-- `(degree + 1) ^ (−1/2)`. -/
def invSqrt (z : FVec Ideal S1600000x1 .f32) (row : IVec S1600000 32) : FVec Ideal S50000x1 .f32 :=
  Host.powf (F := Ideal)
    (addf (degree z row) (broadcastInDim S50000x1 ![] bcast_S_S50000x1 (constant (F := Ideal) S_ .f32 0x3F800000#32)))
    (broadcastInDim S50000x1 ![] bcast_S_S50000x1 (constant (F := Ideal) S_ .f32 0xBF000000#32))

/-- The diagonal term `invSqrt · degree · invSqrt`. -/
def diagTerm (z : FVec Ideal S1600000x1 .f32) (row : IVec S1600000 32) : FVec Ideal S50000x1 .f32 :=
  mulf (mulf (invSqrt z row) (degree z row)) (invSqrt z row)

/-- The normalised off-diagonal maps times the linear layer's output at the edge's target, summed into the sources. -/
def aggTerm (z : FVec Ideal S1600000x1 .f32) (y : FVec Ideal S50000x32 .f32) (row col ridx : IVec S1600000 32) :
    FVec Ideal S50000x32 .f32 :=
  Host.scatterAdd (F := Ideal) scatter_S50000x32_S1600000x1_S1600000x32_1_0_0_1
    (broadcastInDim S50000x32 ![] bcast_S_S50000x32 (constant (F := Ideal) S_ .f32 0x00000000#32))
    (colIdx row)
    (mulf
      (broadcastInDim S1600000x32 ![0, 1] bcast_S1600000x1_S1600000x32_0_1
        (mulf
          (mulf (Host.gather gather_S50000x1_S1600000x1_S1600000x1_1_0_n_n_0_1_11 (invSqrt z row) (wrapIdx 50000#32 row))
            (Host.negf (F := Ideal) (mulf (Host.tanh (F := Ideal) z)
              (Host.gather gather_S1600000x1_S1600000x1_S1600000x1_1_0_n_n_0_1_11 (Host.tanh (F := Ideal) z) (wrapIdx 1600000#32 ridx)))))
          (Host.gather gather_S50000x1_S1600000x1_S1600000x1_1_0_n_n_0_1_11 (invSqrt z row) (wrapIdx 50000#32 col))))
      (Host.gather gather_S50000x32_S1600000x1_S1600000x32_1_0_n_n_0_1_132 y (wrapIdx 50000#32 col)))

/-! ## The buffer contents at the segment boundaries -/

variable (m : (ℓ : Loc nD τ sig) → Buf (Elt Ideal) ℓ) (ρ : Dev nD → PrngReg)

/-- After the first stretch: the two rows of the edge list and the transposed weights; the arguments untouched. -/
theorem W1_v1 (c : Dev nD) : W1 m ρ c (Proc.devRef .tc main_v1) = edgeRow0 (m ((c : Thread nD τ).loc main_arg4)) := by
  show StableHlo.after hostOps0 (W0 m ρ c) (Proc.devRef .tc main_v1) = _
  after_results
  rfl
theorem W1_v3 (c : Dev nD) : W1 m ρ c (Proc.devRef .tc main_v3) = edgeRow1 (m ((c : Thread nD τ).loc main_arg4)) := by
  show StableHlo.after hostOps0 (W0 m ρ c) (Proc.devRef .tc main_v3) = _
  after_results
  rfl
theorem W1_v4 (c : Dev nD) : W1 m ρ c (Proc.devRef .tc main_v4)
    = transpose S32x32 [1, 0] (m ((c : Thread nD τ).loc main_arg2)) transposes_S32x32_S32x32_1_0 := by
  show StableHlo.after hostOps0 (W0 m ρ c) (Proc.devRef .tc main_v4) = _
  after_results
theorem W1_arg0 (c : Dev nD) : W1 m ρ c (Proc.devRef .tc main_arg0) = m ((c : Thread nD τ).loc main_arg0) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg1 (c : Dev nD) : W1 m ρ c (Proc.devRef .tc main_arg1) = m ((c : Thread nD τ).loc main_arg1) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg3 (c : Dev nD) : W1 m ρ c (Proc.devRef .tc main_arg3) = m ((c : Thread nD τ).loc main_arg3) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg5 (c : Dev nD) : W1 m ρ c (Proc.devRef .tc main_arg5) = m ((c : Thread nD τ).loc main_arg5) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- After the first region: its two outputs are `linear` and `proj` of the arguments; its inputs and every other
    buffer are as before. -/
theorem W2_v5_0 (c : Dev nD) : W2 m ρ c (Proc.devRef .tc main_v5_0)
    = Region0.linear (m ((c : Thread nD τ).loc main_arg0))
        (transpose S32x32 [1, 0] (m ((c : Thread nD τ).loc main_arg2)) transposes_S32x32_S32x32_1_0)
        (m ((c : Thread nD τ).loc main_arg3)) := by
  refine (W2_arr m ρ c 4).trans ((Region0.final4 (V1 m ρ) c).trans ?_)
  show Region0.linear (W1 m ρ c (Proc.devRef .tc main_arg0)) (W1 m ρ c (Proc.devRef .tc main_v4)) (W1 m ρ c (Proc.devRef .tc main_arg3)) = _
  rw [W1_arg0, W1_v4, W1_arg3]
theorem W2_v5_1 (c : Dev nD) : W2 m ρ c (Proc.devRef .tc main_v5_1)
    = Region0.proj (m ((c : Thread nD τ).loc main_arg0)) (m ((c : Thread nD τ).loc main_arg1)) := by
  refine (W2_arr m ρ c 5).trans ((Region0.final5 (V1 m ρ) c).trans ?_)
  show Region0.proj (W1 m ρ c (Proc.devRef .tc main_arg0)) (W1 m ρ c (Proc.devRef .tc main_arg1)) = _
  rw [W1_arg0, W1_arg1]
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W2_v1 (c : Dev nD) : W2 m ρ c (Proc.devRef .tc main_v1) = edgeRow0 (m ((c : Thread nD τ).loc main_arg4)) :=
  (W2_of_ne m ρ c main_v1 (by decide)).trans (W1_v1 m ρ c)
theorem W2_v3 (c : Dev nD) : W2 m ρ c (Proc.devRef .tc main_v3) = edgeRow1 (m ((c : Thread nD τ).loc main_arg4)) :=
  (W2_of_ne m ρ c main_v3 (by decide)).trans (W1_v3 m ρ c)
theorem W2_arg5 (c : Dev nD) : W2 m ρ c (Proc.devRef .tc main_arg5) = m ((c : Thread nD τ).loc main_arg5) :=
  (W2_of_ne m ρ c main_arg5 (by decide)).trans (W1_arg5 m ρ c)

/-- After the second stretch: the diagonal term and the aggregate, as the named chain of the projections, the linear
    layer's output and the edge list; the node array and the linear layer's output untouched. -/
theorem W3_v70 (c : Dev nD) : W3 m ρ c (Proc.devRef .tc main_v70)
    = diagTerm (preTanh (W2 m ρ c (Proc.devRef .tc main_v5_1)) (W2 m ρ c (Proc.devRef .tc main_v1)) (W2 m ρ c (Proc.devRef .tc main_v3)))
        (W2 m ρ c (Proc.devRef .tc main_v1)) := by
  show StableHlo.after hostOps1 (W2 m ρ c) (Proc.devRef .tc main_v70) = _
  generalize W2 m ρ c = W
  after_results_simp
  rfl
theorem W3_v68 (c : Dev nD) : W3 m ρ c (Proc.devRef .tc main_v68)
    = aggTerm (preTanh (W2 m ρ c (Proc.devRef .tc main_v5_1)) (W2 m ρ c (Proc.devRef .tc main_v1)) (W2 m ρ c (Proc.devRef .tc main_v3)))
        (W2 m ρ c (Proc.devRef .tc main_v5_0))
        (W2 m ρ c (Proc.devRef .tc main_v1)) (W2 m ρ c (Proc.devRef .tc main_v3)) (W2 m ρ c (Proc.devRef .tc main_arg5)) := by
  show StableHlo.after hostOps1 (W2 m ρ c) (Proc.devRef .tc main_v68) = _
  generalize W2 m ρ c = W
  after_results_simp
  rfl
theorem W3_v5_0 (c : Dev nD) : W3 m ρ c (Proc.devRef .tc main_v5_0) = W2 m ρ c (Proc.devRef .tc main_v5_0) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W3_arg0 (c : Dev nD) : W3 m ρ c (Proc.devRef .tc main_arg0) = W2 m ρ c (Proc.devRef .tc main_arg0) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

end Cert.KernelIdeal.HostK

end
-- ==== Proof.SameChain.lean ====
/-
  The two programs apply the same chain of host operations.

  Once the value under the restriction map's `tanh` and the linear layer's output are given, both programs compute the
  diagonal term and the aggregate by the same operations on them and on the edge list, in the same arrangement; only
  the order in which the independent operations are listed differs, and a composed term does not see that order. So the
  kernel program's named chain, fed the reference's own two intermediate values, is the reference's term: the two sides
  are the same expression, written once over each program's own copy of the shape and dimension records.
-/
import proofs.«112513_j47115791237987_2_alg».proof.Proof.HostK
import proofs.«112513_j47115791237987_2_alg».proof.Proof.Gen.ReferenceIdeal.Read

set_option maxRecDepth 16384
set_option maxHeartbeats 4000000

noncomputable section

namespace Cert.Bridge.SameChain

open Idealize.ShloMosaic Idealize.ShloMosaic.TcCoe Idealize.SL.Sem
open Cert.ReferenceIdeal Cert.ReferenceIdeal.Read
open Cert.KernelIdeal.HostK

variable (x0 : (⟨S50000x32, .f32⟩ : BufTy).Contents (Elt Ideal)) (x1 : (⟨S1x64, .f32⟩ : BufTy).Contents (Elt Ideal)) (x2 : (⟨S32x32, .f32⟩ : BufTy).Contents (Elt Ideal))
  (x3 : (⟨S32, .f32⟩ : BufTy).Contents (Elt Ideal)) (x4 : (⟨S2x1600000, .i32⟩ : BufTy).Contents (Elt Ideal)) (x5 : (⟨S1600000, .i32⟩ : BufTy).Contents (Elt Ideal))

/-- The edge list's first row is the reference's source-node vector. -/
theorem edgeRow0_eq : edgeRow0 x4 = val_main_v1 (F := Ideal) x4 := rfl
/-- The edge list's second row is the reference's target-node vector. -/
theorem edgeRow1_eq : edgeRow1 x4 = val_main_v3 (F := Ideal) x4 := rfl
/-- The transposed weights are the reference's. -/
theorem transpose_eq : transpose Cert.KernelIdeal.S32x32 [1, 0] x2 Cert.KernelIdeal.Gen.transposes_S32x32_S32x32_1_0
    = val_main_v58 (F := Ideal) x2 := rfl

/-- The wrapped source-node column the reference gathers the nodes with is the kernel program's. -/
theorem wrap_row_eq : val_main_v9 (F := Ideal) x4 = wrapIdx 50000#32 (val_main_v1 (F := Ideal) x4) := rfl
/-- The wrapped target-node column the reference gathers the nodes with is the kernel program's. -/
theorem wrap_col_eq : val_main_v16 (F := Ideal) x4 = wrapIdx 50000#32 (val_main_v3 (F := Ideal) x4) := rfl

/-- The diagonal term: the kernel program's chain on the reference's pre-`tanh` value is the reference's term. -/
theorem diag_eq : diagTerm (val_main_v20 (F := Ideal) x0 x1 x4) (val_main_v1 (F := Ideal) x4)
    = val_main_v56 (F := Ideal) x0 x1 x4 := by
  generalize hz : val_main_v20 (F := Ideal) x0 x1 x4 = z
  generalize hr : val_main_v1 (F := Ideal) x4 = row
  unfold val_main_v56 val_main_v55 val_main_v38 val_main_v36 val_main_v37 val_main_cst_6 val_main_v35 val_main_cst_5
    val_main_v34 val_main_v31 val_main_v21 val_main_v32 val_main_cst val_main_v33
  rw [hz, hr]
  rfl

/-- The aggregate: the kernel program's chain on the reference's pre-`tanh` value and linear-layer output is the
    reference's term. -/
theorem agg_eq : aggTerm (val_main_v20 (F := Ideal) x0 x1 x4) (val_main_v62 (F := Ideal) x0 x2 x3)
      (val_main_v1 (F := Ideal) x4) (val_main_v3 (F := Ideal) x4) x5
    = val_main_v77 (F := Ideal) x0 x1 x2 x3 x4 x5 := by
  generalize hz : val_main_v20 (F := Ideal) x0 x1 x4 = z
  generalize hy : val_main_v62 (F := Ideal) x0 x2 x3 = y
  generalize hr : val_main_v1 (F := Ideal) x4 = row
  generalize hc : val_main_v3 (F := Ideal) x4 = col
  unfold val_main_v77 val_main_v76 val_main_v75 val_main_cst_13 val_main_v74 val_main_v73 val_main_v72 val_main_v71 val_main_v70
    val_main_v69 val_main_v68 val_main_c_12 val_main_v67 val_main_v66 val_main_c_11
    val_main_v54 val_main_v53 val_main_v52 val_main_v51 val_main_v50 val_main_v49 val_main_c_10 val_main_v48 val_main_v47 val_main_c_9
    val_main_v46 val_main_v45 val_main_v44 val_main_v43 val_main_v42 val_main_v41 val_main_c_8 val_main_v40 val_main_v39 val_main_c_7
    val_main_v38 val_main_v36 val_main_v37 val_main_cst_6 val_main_v35 val_main_cst_5
    val_main_v34 val_main_v31 val_main_v32 val_main_cst val_main_v33
    val_main_v30 val_main_v29 val_main_v28 val_main_v27 val_main_v26 val_main_v25 val_main_v24 val_main_c_4 val_main_v23 val_main_v22 val_main_c_3
    val_main_v21
  rw [hz, hy, hr, hc]
  rfl

end Cert.Bridge.SameChain

end
-- ==== Proof.LibGatherRows.lean ====
/-
  One row of a table per position: `stablehlo.gather` of a rank-2 operand `[N, D]` at a column `[E, 1]` of start
  indices, with offset axis 1, collapsed axis 0, start index map `[0]`, the index vector on axis 1 and slices
  `[1, D]` — what `x[idx]` of a matrix at a vector of row numbers lowers to. The result element `(e, k)` is the
  operand at row `idx[e, 0]`, read as a signed integer and clamped into `[0, N − 1]`, and column `k`.
-/
import Idealize.ShloMosaic.Lib.ValueIdx

noncomputable section

namespace Idealize.ShloMosaic.GatherRows

open Idealize.ShloMosaic Idealize.ShloMosaic.ValueIdx

variable {α : Type}

/-- Those dimension numbers for an operand `[N, D]`, start indices `[E, 1]` and result `[E, D]`; their conditions
    `wf` are decided on a program's literal shapes. -/
abbrev rowsDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row the gather reads for position `e`: the start index `idx[e, 0]` read signed, clamped into `[0, N − 1]`. -/
def rowOf {N E w : Nat} (hN : 0 < N) (idx : IVec ⟨2, ![E, 1]⟩ w) (e : Fin E) : Fin N :=
  ⟨min (idx (ix2 e (0 : Fin 1))).toInt.toNat (N - 1), by omega⟩

/-- THE GATHER READ AT `(e, k)`: the operand at row `rowOf idx e`, column `k`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowsDims N D E wf) x idx (ix2 e k) = x (ix2 (rowOf hN idx e) k) := by
  unfold Host.gather
  congr 1
  funext a
  refine Fin.ext ?_
  match a with
  | ⟨0, _⟩ =>
    show (rowsDims N D E wf).start (ix2 e k) idx 0 + (rowsDims N D E wf).batchCoord (ix2 e k) 0
      + (rowsDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D E wf).startIndexMap from List.mem_singleton.mpr rfl)]
    have hsi : (rowsDims N D E wf).siIdx (ix2 e k) ⟨List.idxOf (0 : Fin 2) (rowsDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N D E wf).start (ix2 e k) idx 1 + (rowsDims N D E wf).batchCoord (ix2 e k) 1
      + (rowsDims N D E wf).offCoord (ix2 e k) 1 = _
    rw [GatherDims.batchCoord_eq_zero _ _ _ List.not_mem_nil]
    unfold GatherDims.start
    rw [dif_neg (show (1 : Fin 2) ∉ (rowsDims N D E wf).startIndexMap from fun h => Nat.one_ne_zero (congrArg Fin.val (List.mem_singleton.mp h)))]
    simp only [Nat.add_zero, Nat.zero_add]
    rfl

end Idealize.ShloMosaic.GatherRows

end
-- ==== Proof.LibSumHalves.lean ====
/-
  A sum over 64 terms is the sum of its first 32 terms plus the sum of its last 32 terms, in any commutative monoid
  (so also on the extended reals, where addition is commutative and associative but not cancellative).
-/
import Mathlib.Algebra.BigOperators.Fin

open scoped BigOperators

namespace Cert.LibSumHalves

/-- `∑_{k<64} f k = ∑_{k<32} f k + ∑_{k<32} f (32 + k)`. -/
theorem sum_fin64_halves {M : Type*} [AddCommMonoid M] (f : Fin 64 → M) :
    ∑ k : Fin 64, f k = (∑ k : Fin 32, f ⟨k.val, by omega⟩) + ∑ k : Fin 32, f ⟨32 + k.val, by omega⟩ :=
  Fin.sum_univ_add (a := 32) (b := 32) f

end Cert.LibSumHalves
-- ==== Proof.RefPieces.lean ====
/-
  The three places where the two programs differ, each as an equation between whole arrays at the ideal values.

  * The linear layer. The kernel's first output is `(∑ₖ x[n,k]·wᵀ[k,q]) + b[q]`; the reference's is its matrix product
    of the nodes with the transposed weights, plus the bias broadcast over the rows: the same sum and the same bias.
  * The value under the restriction map's `tanh`. The kernel adds two 32-term sums, `∑ₖ x[row[e],k]·s[k]` and
    `∑ₖ x[col[e],k]·s[32+k]` (the projection columns gathered at the edge's ends). The reference joins row `row[e]` and
    row `col[e]` of the nodes into one 64-vector and takes ONE 64-term sum against `s`. A 64-term sum is the sum of its
    two halves, and term `k` of the first half is `x[row[e],k]·s[k]`, term `k` of the second `x[col[e],k]·s[32+k]`.
    Only commutativity and associativity of addition are used, so no finiteness is needed. The gathers clamp the same
    wrapped node number into the same range `[0, 49999]` on both sides, because both tables have 50000 rows.
  * The last step. The kernel's second region computes `x − 1·(d·y + a)` with the diagonal term read in its one
    column; the reference flattens the diagonal term, spreads it back over the 32 columns and applies the same
    operations.
-/
import proofs.«112513_j47115791237987_2_alg».proof.Proof.HostK
import proofs.«112513_j47115791237987_2_alg».proof.Proof.Region1
import proofs.«112513_j47115791237987_2_alg».proof.Proof.SameChain
import proofs.«112513_j47115791237987_2_alg».proof.Proof.LibGatherRows
import proofs.«112513_j47115791237987_2_alg».proof.Proof.LibSumHalves
import proofs.«112513_j47115791237987_2_alg».proof.Proof.Gen.ReferenceIdeal.Read
import Idealize.ShloMosaic.Lib.ValueLayout

set_option maxRecDepth 16384
set_option maxHeartbeats 4000000

noncomputable section

open scoped BigOperators

namespace Cert.Bridge.RefPieces

open Idealize.ShloMosaic Idealize.ShloMosaic.TcCoe Idealize.SL.Sem Idealize.ShloMosaic.ValueIdx
open Idealize.ShloMosaic.GatherRows
open Cert.ReferenceIdeal Cert.ReferenceIdeal.Gen Cert.ReferenceIdeal.Read
open Cert.KernelIdeal.HostK Cert.KernelIdeal.Region0 Cert.KernelIdeal.Region1

variable (x0 : (⟨S50000x32, .f32⟩ : BufTy).Contents (Elt Ideal)) (x1 : (⟨S1x64, .f32⟩ : BufTy).Contents (Elt Ideal)) (x2 : (⟨S32x32, .f32⟩ : BufTy).Contents (Elt Ideal))
  (x3 : (⟨S32, .f32⟩ : BufTy).Contents (Elt Ideal)) (x4 : (⟨S2x1600000, .i32⟩ : BufTy).Contents (Elt Ideal)) (x5 : (⟨S1600000, .i32⟩ : BufTy).Contents (Elt Ideal))

/-! ## The linear layer -/

theorem linear_eq : linear x0 (val_main_v58 (F := Ideal) x2) x3 = val_main_v62 (F := Ideal) x0 x2 x3 := by
  funext i
  rw [val_main_v62_apply, val_main_v59_apply, val_main_v61_apply, val_main_v60_apply]
  have el : ∀ k : Fin 32, lidx_main_v59 i k = ix2 (i 0) k := fun k => funext fun a => Fin.ext (by
    match a with
    | ⟨0, _⟩ => rfl
    | ⟨1, _⟩ => rfl)
  have er : ∀ k : Fin 32, ridx_main_v59 i k = ix2 k (i 1) := fun k => funext fun a => Fin.ext (by
    match a with
    | ⟨0, _⟩ => rfl
    | ⟨1, _⟩ => rfl)
  have eb : idx_main_v60 (idx_main_v61 i) = ix1 (i 1) := funext fun a => Fin.ext (by
    match a with
    | ⟨0, _⟩ => rfl)
  simp only [el, er, eb]
  rfl

/-! ## The last step -/

theorem finalize_eq : finalize x0 (val_main_v62 (F := Ideal) x0 x2 x3) (val_main_v56 (F := Ideal) x0 x1 x4)
      (val_main_v77 (F := Ideal) x0 x1 x2 x3 x4 x5)
    = val_main_v81 (F := Ideal) x0 x1 x2 x3 x4 x5 := by
  funext i
  rw [val_main_v81_apply, val_main_v80_apply, val_main_v79_apply, val_main_cst_14_apply, val_main_v78_apply,
    val_main_v65_apply, val_main_v64_apply, val_main_v63_apply, val_main_v57_apply]
  have e : idx_main_v57 (idx_main_v63 (idx_main_v64 i)) = ix2 (i 0) (0 : Fin 1) := funext fun a => Fin.ext (by
    match a with
    | ⟨0, _⟩ => show (i 0).val / 1 = (i 0).val; omega
    | ⟨1, _⟩ => rfl)
  rw [e]
  rfl

/-! ## The value under `tanh` -/

theorem n_pos : 0 < 50000 := by decide

/-- A gather of a one-column table at an edge: the table at the clamped row. -/
theorem gather_col (X : FVec Ideal Cert.KernelIdeal.S50000x1 .f32) (idx : IVec Cert.KernelIdeal.S1600000x1 32)
    (e : Fin 1600000) (u : Fin 1) :
    Host.gather Cert.KernelIdeal.gather_S50000x1_S1600000x1_S1600000x1_1_0_n_n_0_1_11 X idx (ix2 e u)
      = X (ix2 (rowOf n_pos idx e) u) :=
  gather_rows_apply (N := 50000) (D := 1) (E := 1600000) n_pos _ X idx e u

/-- A gather of the node table at an edge: the table's clamped row, at the same column. -/
theorem gather_nodes (X : FVec Ideal S50000x32 .f32) (idx : IVec S1600000x1 32) (e : Fin 1600000) (k : Fin 32) :
    Host.gather gather_S50000x32_S1600000x1_S1600000x32_1_0_n_n_0_1_132 X idx (ix2 e k)
      = X (ix2 (rowOf n_pos idx e) k) :=
  gather_rows_apply (N := 50000) (D := 32) (E := 1600000) n_pos _ X idx e k

/-- Column `c` of the two projection columns, cut out as a one-column table. -/
theorem slice_col0 (Pj : FVec Ideal Cert.KernelIdeal.S50000x2 .f32) (r : Fin 50000) (u : Fin 1) :
    extractStridedSlice Cert.KernelIdeal.S50000x1 ![0, 0] Pj Cert.KernelIdeal.Gen.slices_S50000x2_S50000x1_0_0 (ix2 r u)
      = Pj (ix2 r (⟨0, by omega⟩ : Fin 2)) :=
  extractStridedSlice_apply ![0, 0] Pj _ (ix2 r u) (ix2 r (⟨0, by omega⟩ : Fin 2)) (fun a => by
    match a with
    | ⟨0, _⟩ => show r.val = 0 + r.val; omega
    | ⟨1, _⟩ => show 0 = 0 + u.val; omega)
theorem slice_col1 (Pj : FVec Ideal Cert.KernelIdeal.S50000x2 .f32) (r : Fin 50000) (u : Fin 1) :
    extractStridedSlice Cert.KernelIdeal.S50000x1 ![0, 1] Pj Cert.KernelIdeal.Gen.slices_S50000x2_S50000x1_0_1 (ix2 r u)
      = Pj (ix2 r (⟨1, by omega⟩ : Fin 2)) :=
  extractStridedSlice_apply ![0, 1] Pj _ (ix2 r u) (ix2 r (⟨1, by omega⟩ : Fin 2)) (fun a => by
    match a with
    | ⟨0, _⟩ => show r.val = 0 + r.val; omega
    | ⟨1, _⟩ => show 1 = 1 + u.val; omega)

/-- The joined 64-vector of an edge: its first 32 entries are the first operand's row … -/
theorem concat_left (a b : FVec Ideal S1600000x32 .f32) (e : Fin 1600000) (k : Fin 32) :
    concatenate S1600000x64 1 [⟨S1600000x32, a⟩, ⟨S1600000x32, b⟩] concatenates_S1600000x32_S1600000x32_S1600000x64_d1
      (ix2 e (⟨k.val, by omega⟩ : Fin 64)) = a (ix2 e k) :=
  concatenate_pair_apply_left (t := S1600000x64) (s₁ := S1600000x32) (s₂ := S1600000x32) (1 : Fin 2) a b
    concatenates_S1600000x32_S1600000x32_S1600000x64_d1 (ix2 e (⟨k.val, by omega⟩ : Fin 64)) rfl (ix2 e k) (fun bx => by
      match bx with
      | ⟨0, _⟩ => rfl
      | ⟨1, _⟩ => rfl)
/-- … and its last 32 entries the second operand's row. -/
theorem concat_right (a b : FVec Ideal S1600000x32 .f32) (e : Fin 1600000) (k : Fin 32) :
    concatenate S1600000x64 1 [⟨S1600000x32, a⟩, ⟨S1600000x32, b⟩] concatenates_S1600000x32_S1600000x32_S1600000x64_d1
      (ix2 e (⟨32 + k.val, by omega⟩ : Fin 64)) = b (ix2 e k) :=
  concatenate_pair_apply_right (t := S1600000x64) (s₁ := S1600000x32) (s₂ := S1600000x32) (1 : Fin 2) a b
    concatenates_S1600000x32_S1600000x32_S1600000x64_d1 (ix2 e (⟨32 + k.val, by omega⟩ : Fin 64)) rfl rfl (ix2 e k) (fun bx hb => by
      match bx with
      | ⟨0, _⟩ => rfl
      | ⟨1, _⟩ => exact absurd rfl hb) (by show k.val + 32 = 32 + k.val; omega)

/-- The kernel program's value under `tanh`, fed the reference's node vectors, is the reference's. -/
theorem preTanh_eq : preTanh (proj x0 x1) (val_main_v1 (F := Ideal) x4) (val_main_v3 (F := Ideal) x4)
    = val_main_v20 (F := Ideal) x0 x1 x4 := by
  funext i
  obtain ⟨e, u, rfl⟩ : ∃ (e : Fin 1600000) (u : Fin 1), i = ix2 e u := ⟨i 0, i 1, eq_ix2 i⟩
  have hu : u = 0 := Subsingleton.elim _ _
  subst hu
  rw [val_main_v20_apply, Cert.LibSumHalves.sum_fin64_halves]
  beta_reduce
  unfold preTanh
  rw [addf_apply, gather_col, gather_col, slice_col0, slice_col1]
  unfold proj
  refine congrArg₂ (· + ·) (Finset.sum_congr rfl fun k _ => ?_) (Finset.sum_congr rfl fun k _ => ?_)
  · have el : lidx_main_v20 (ix2 e (0 : Fin 1)) (⟨k.val, by omega⟩ : Fin 64) = ix2 e (⟨k.val, by omega⟩ : Fin 64) :=
      funext fun a => Fin.ext (by
        match a with
        | ⟨0, _⟩ => rfl
        | ⟨1, _⟩ => rfl)
    have er : idx_main_v19 (ridx_main_v20 (ix2 e (0 : Fin 1)) (⟨k.val, by omega⟩ : Fin 64))
        = ix2 (0 : Fin 1) (sheafAt (⟨0, by omega⟩ : Fin 2) k) := funext fun a => Fin.ext (by
        match a with
        | ⟨0, _⟩ => rfl
        | ⟨1, _⟩ => show k.val = 32 * 0 + k.val; omega)
    rw [val_main_v19_apply, el, er]
    unfold val_main_v18
    rw [concat_left]
    unfold val_main_v10
    rw [gather_nodes, Cert.Bridge.SameChain.wrap_row_eq]
  · have el : lidx_main_v20 (ix2 e (0 : Fin 1)) (⟨32 + k.val, by omega⟩ : Fin 64) = ix2 e (⟨32 + k.val, by omega⟩ : Fin 64) :=
      funext fun a => Fin.ext (by
        match a with
        | ⟨0, _⟩ => rfl
        | ⟨1, _⟩ => rfl)
    have er : idx_main_v19 (ridx_main_v20 (ix2 e (0 : Fin 1)) (⟨32 + k.val, by omega⟩ : Fin 64))
        = ix2 (0 : Fin 1) (sheafAt (⟨1, by omega⟩ : Fin 2) k) := funext fun a => Fin.ext (by
        match a with
        | ⟨0, _⟩ => rfl
        | ⟨1, _⟩ => show 32 + k.val = 32 * 1 + k.val; omega)
    rw [val_main_v19_apply, el, er]
    unfold val_main_v18
    rw [concat_right]
    unfold val_main_v17
    rw [gather_nodes, Cert.Bridge.SameChain.wrap_col_eq]

end Cert.Bridge.RefPieces

end
-- ==== Proof.Bridge.lean ====
/-
  The idealized kernel's result is the reference's function of the kernel's own arguments.

  Walking back from the result buffer: it is the second region's output, `x − 1·(d·y + a)` of the four arrays that
  region finds; of those, `x` is the node argument, `y` the first region's first output (the linear layer), and `d`, `a`
  the diagonal term and the aggregate the host computed from the first region's second output (the two projection
  columns), `y`, and the edge list. The linear layer and the value under `tanh` are the reference's
  (`RefPieces.linear_eq`, `RefPieces.preTanh_eq`), the chain after them is the same on both sides (`SameChain`), and the
  last step is the reference's last four operations (`RefPieces.finalize_eq`).
-/
import proofs.«112513_j47115791237987_2_alg».proof.Proof.KernelRun
import proofs.«112513_j47115791237987_2_alg».proof.Proof.Region1
import proofs.«112513_j47115791237987_2_alg».proof.Proof.HostK
import proofs.«112513_j47115791237987_2_alg».proof.Proof.SameChain
import proofs.«112513_j47115791237987_2_alg».proof.Proof.RefPieces

set_option maxRecDepth 16384
set_option maxHeartbeats 4000000

noncomputable section

namespace Cert.Bridge

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The reference's result term on the kernel's argument arrays. -/
def spec (c : Dev nD) : Buf (Elt Ideal) ((c.tc : Thread nD τ).loc main_v71) :=
  Cert.ReferenceIdeal.Read.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5))

/-- The result buffer's final contents are that term. -/
theorem result_eq (c : Dev nD) : W4 m ρ c (Proc.devRef .tc main_v71) = spec m c := by
  rw [Cert.KernelIdeal.ValueRun.W4_result, Cert.KernelIdeal.Region1.final (V3 m ρ) c]
  show Cert.KernelIdeal.Region1.finalize (W3 m ρ c (Proc.devRef .tc main_arg0)) (W3 m ρ c (Proc.devRef .tc main_v5_0))
    (W3 m ρ c (Proc.devRef .tc main_v70)) (W3 m ρ c (Proc.devRef .tc main_v68)) = _
  rw [HostK.W3_arg0, HostK.W2_arg0, HostK.W3_v5_0, HostK.W3_v70, HostK.W3_v68, HostK.W2_v5_0, HostK.W2_v5_1, HostK.W2_v1,
    HostK.W2_v3, HostK.W2_arg5]
  rw [SameChain.edgeRow0_eq, SameChain.edgeRow1_eq, SameChain.transpose_eq, RefPieces.linear_eq, RefPieces.preTanh_eq,
    SameChain.diag_eq, SameChain.agg_eq, RefPieces.finalize_eq]
  rfl

end Cert.Bridge

end
-- ==== Proof.lean ====
/-
  The certificate of one sheaf-diffusion layer: a Pallas kernel in two grid regions with host gathers and scatters
  between them, against its plain jnp reference, equal over the extended reals.

  Both programs compute `out = x − 1·(d·y + agg)` where `y = x·Wᵀ + b` is a linear layer, `d` a per-node diagonal term
  and `agg` a sum of edge messages, all three functions of the restriction maps `tanh(z)`, one per edge.
  They differ in three places. The kernel computes `y` in its first region as a matrix product into a zero
  accumulator plus the bias, the reference as a host matrix product plus the broadcast bias: the same sums
  (`RefPieces.linear_eq`). The kernel computes `z[e] = p₁[row e] + p₂[col e]` from two per-node projections
  `pⱼ[n] = ∑ₖ x[n,k]·s[32j+k]` made in the same region, the reference `z[e] = ∑_{k<64} [x[row e] ; x[col e]][k]·s[k]`:
  a sum of 64 terms is the sum of its two halves (`RefPieces.preTanh_eq`; only commutativity and associativity of
  addition, so the precondition is never opened). And the kernel does the last step in its second region, the reference
  on the host (`RefPieces.finalize_eq`). Everything between is the same chain of host operations in both programs and
  is carried as one named function of `z` and `y` (`SameChain`).
  The kernel's frames are the generated ones; its result is read off the same launch (`KernelRun`), each region's
  output blocks assembled into one whole-array function (`Region0`, `Region1`), the host stretches read as named
  functions (`HostK`) and joined in `Bridge`. The reference's frame and result are its generated run. The ideal pass
  rewrote nothing, so `preserves` is `True`.
-/
import proofs.«112513_j47115791237987_2_alg».proof.Defs
import proofs.«112513_j47115791237987_2_alg».proof.Proof.Gen.Kernel
import proofs.«112513_j47115791237987_2_alg».proof.Proof.Gen.Kernel.Frame
import proofs.«112513_j47115791237987_2_alg».proof.Proof.Gen.KernelIdeal
import proofs.«112513_j47115791237987_2_alg».proof.Proof.Gen.KernelIdeal.Frame
import proofs.«112513_j47115791237987_2_alg».proof.Proof.Gen.ReferenceIdeal
import proofs.«112513_j47115791237987_2_alg».proof.Proof.Gen.Pre_finite_inputs
import proofs.«112513_j47115791237987_2_alg».proof.Proof.Gen.ReferenceIdeal.Read
import proofs.«112513_j47115791237987_2_alg».proof.Proof.KernelRun
import proofs.«112513_j47115791237987_2_alg».proof.Proof.Bridge
import Idealize.ShloMosaic.Adequacy
import Idealize.ShloMosaic.Init

set_option maxRecDepth 16384

noncomputable section

namespace Cert.Proof

open Idealize.ShloMosaic Idealize.SL.Sem

/-- The two idealized programs, from memories agreeing on the arguments, end with equal results: the kernel's result
    is the reference's term on the kernel's arguments (`Bridge.result_eq`), the reference's is that term on its own
    arguments (its generated run), and the arguments agree. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' _ hagree
  refine ⟨fun c => Cert.Bridge.spec m c, ?_, ?_⟩
  · exact (θ_run Cert.KernelIdeal.defs _ _).mono
      (fun r h c => ⟨(h c).1.trans (Cert.Bridge.result_eq m ρ c), (h c).2⟩)
      (Cert.KernelIdeal.ValueRun.run_W4 (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v81_eq, (hagree c).1, (hagree c).2.1, (hagree c).2.2.1, (hagree c).2.2.2.1,
      (hagree c).2.2.2.2.1, (hagree c).2.2.2.2.2]
    rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic (hKernelIdeal := Cert.KernelIdeal.Gen.facts) (hReferenceIdeal := Cert.ReferenceIdeal.Gen.facts)
    (hPre_finite_inputs := Cert.Pre_finite_inputs.Gen.facts)⟩

end Cert.Proof

end
